-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x4096 : Shape := ⟨2, ![16384, 4096]⟩
abbrev S_ : Shape := ⟨0, ![]⟩

class Facts : Prop where
  bcast_S_S16384x4096 : S_.BroadcastsInDim S16384x4096 (![] : Fin 0 → Fin S16384x4096.rank)
  reducesTo_S16384x4096_S_d0_1 : S16384x4096.ReducesTo [0, 1] S_
  h_S_ : 0 < S_.numel

variable [Facts]

def fn {F : FTy → Type} [FloatOps F] (main_arg0 : FVec F S16384x4096 .f32) (main_arg1 : IVec S16384x4096 32) : IVec S_ 1 :=
  let main_v0 : FVec F S16384x4096 .f32 := Host.absf main_arg0
  let main_cst : FVec F S_ .f32 := constant S_ .f32 0x7F800000#32
  let main_v1 : FVec F S16384x4096 .f32 := broadcastInDim S16384x4096 ![] bcast_S_S16384x4096 main_cst
  let main_v2 : IVec S16384x4096 1 := cmpf .olt main_v0 main_v1
  let main_c : IVec S_ 1 := constantI S_ 1 1#1
  let main_v3 : IVec S_ 1 := (fun x v => Host.reduce IntOp.andi x v reducesTo_S16384x4096_S_d0_1 h_S_) main_v2 main_c
  main_v3
-- ==== Kernel.lean ====
abbrev S16384x4096 : Shape := ⟨2, ![16384, 4096]⟩
abbrev S16x128 : Shape := ⟨2, ![16, 128]⟩
abbrev S256x4096 : Shape := ⟨2, ![256, 4096]⟩
abbrev S8x128 : Shape := ⟨2, ![8, 128]⟩
abbrev S256 : Shape := ⟨1, ![256]⟩
abbrev S256x1 : Shape := ⟨2, ![256, 1]⟩
abbrev S1 : Shape := ⟨1, ![1]⟩
abbrev S1x1 : Shape := ⟨2, ![1, 1]⟩
abbrev S_ : Shape := ⟨0, ![]⟩

abbrev nBuf : Space → Nat
  | .hbm => 11
  | .vmem => 7
  | .smem => 0
  | _ => 0

abbrev bufTy : (tb : Table) → Fin (tcTables nBuf tb) → BufTy
  | .hbm, ⟨0, _⟩ => ⟨S16384x4096, .f32⟩
  | .hbm, ⟨1, _⟩ => ⟨S16384x4096, .i32⟩
  | .hbm, ⟨2, _⟩ => ⟨S16x128, .f32⟩
  | .hbm, ⟨3, _⟩ => ⟨S1x1, .f32⟩
  | .hbm, ⟨4, _⟩ => ⟨S_, .f32⟩
  | .hbm, ⟨5, _⟩ => ⟨S1x1, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .local _ .vmem, ⟨0, _⟩ => ⟨S256x4096, .f32⟩
  | .local _ .vmem, ⟨1, _⟩ => ⟨S256x4096, .f32⟩
  | .local _ .vmem, ⟨2, _⟩ => ⟨S256x4096, .i32⟩
  | .local _ .vmem, ⟨3, _⟩ => ⟨S256x4096, .i32⟩
  | .local _ .vmem, ⟨4, _⟩ => ⟨S8x128, .f32⟩
  | .local _ .vmem, ⟨5, _⟩ => ⟨S8x128, .f32⟩
  | .local _ .vmem, ⟨6, _⟩ => ⟨S8x128, .f32⟩
  | _, _ => ⟨S16384x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_cst : Ref sig .tc := ⟨.hbm, 8, rfl⟩
abbrev main_v6 : Ref sig .tc := ⟨.hbm, 9, rfl⟩
abbrev main_v7 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 32], ![false, false]⟩

def k0_cond2 (i : grid0.Coords) : BitVec 1 :=
  let arg1 : BitVec 32 := BitVec.ofNat 32 (i 1).val
  let c31_i32 : BitVec 32 := 31#32
  let v22 : BitVec 1 := Scalar.cmpi .eq arg1 c31_i32
  let v23 : BitVec 32 := Scalar.extui v22
  let c0_i32_11 : BitVec 32 := 0#32
  let v24 : BitVec 1 := Scalar.cmpi .ne v23 c0_i32_11
  v24

def cc0_transform_0 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x4096 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  inb_S8x128_S8x128_0_0 : ∀ a, (![0, 0] : Fin 2 → Nat) a + S8x128.size a ≤ S8x128.size a
  h_S8x128 : 0 < S8x128.numel
  shapeCasts_S8x128_S8x128 : S8x128.ShapeCasts S8x128
  inb_S256x4096_S256x4096_0_0 : ∀ a, (![0, 0] : Fin 2 → Nat) a + S256x4096.size a ≤ S256x4096.size a
  h_S256x4096 : 0 < S256x4096.numel
  reduces_S256x4096_S256 : S256x4096.Reduces [1] S256
  shapeCasts_S256_S256x1 : S256.ShapeCasts S256x1
  reduces_S256x1_S1 : S256x1.Reduces [0] S1
  shapeCasts_S1_S1x1 : S1.ShapeCasts S1x1
  shapeCasts_S1x1_S1x1 : S1x1.ShapeCasts S1x1
  broadcasts_S1x1_S8x128 : S1x1.Broadcasts S8x128
  slices_S16x128_S1x1_0_0 : S16x128.Slices ![0, 0] S1x1
  shapeCasts_S1x1_S_ : S1x1.ShapeCasts S_
  slices_S16x128_S1x1_8_0 : S16x128.Slices ![8, 0] S1x1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x4096.size a ≤ S16384x4096.size a
  hwx0_0 : ∀ i : grid0.Coords, EltTy.bits .f32 = 32 ∨ (Rect.block (s := S16384x4096) S256x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x4096.size a ≤ S16384x4096.size a
  hwx0_1 : ∀ i : grid0.Coords, EltTy.bits .i32 = 32 ∨ (Rect.block (s := S16384x4096) S256x4096.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8x128.size a ≤ S16x128.size a
  hwx0_2 : ∀ i : grid0.Coords, EltTy.bits .f32 = 32 ∨ (Rect.block (s := S16x128) S8x128.size (cc0_transform_2 i) (hinb0_2 i)).WholeWords (EltTy.packing .f32)

variable [Facts₀]

abbrev win0_0 : Pipeline.Window sig grid0 :=
  Pipeline.Window.ofSpec (Memref.whole main_arg0) S256x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S8x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S16384x4096 : Shape := ⟨2, ![16384, 4096]⟩
abbrev S_ : Shape := ⟨0, ![]⟩

abbrev nBuf : Space → Nat
  | .hbm => 14
  | .vmem => 0
  | .smem => 0
  | _ => 0

abbrev bufTy : (tb : Table) → Fin (tcTables nBuf tb) → BufTy
  | .hbm, ⟨0, _⟩ => ⟨S16384x4096, .f32⟩
  | .hbm, ⟨1, _⟩ => ⟨S16384x4096, .i32⟩
  | .hbm, ⟨2, _⟩ => ⟨S_, .i32⟩
  | .hbm, ⟨3, _⟩ => ⟨S16384x4096, .i32⟩
  | .hbm, ⟨4, _⟩ => ⟨S16384x4096, .i1⟩
  | .hbm, ⟨5, _⟩ => ⟨S16384x4096, .f32⟩
  | .hbm, ⟨6, _⟩ => ⟨S16384x4096, .f32⟩
  | .hbm, ⟨7, _⟩ => ⟨S16384x4096, .f32⟩
  | .hbm, ⟨8, _⟩ => ⟨S16384x4096, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | _, _ => ⟨S16384x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_cst_0 : Ref sig .tc := ⟨.hbm, 11, rfl⟩
abbrev main_v7 : Ref sig .tc := ⟨.hbm, 12, rfl⟩
abbrev main_v8 : Ref sig .tc := ⟨.hbm, 13, rfl⟩

abbrev nD : Nat := 1
abbrev τ : Topo := Topo.v7x

variable {F : FTy → Type} [FloatOps F]

class Facts₀ : Prop where
  bcast_S_S16384x4096 : S_.BroadcastsInDim S16384x4096 (![] : Fin 0 → Fin S16384x4096.rank)
  reducesTo_S16384x4096_S_d0_1 : S16384x4096.ReducesTo [0, 1] S_
  h_S_ : 0 < S_.numel

variable [Facts₀]

class Facts : Prop extends Facts₀ where

variable [Facts]
-- ==== Proof.Pieces.lean ====
/-
  What each control case of the body leaves in the accumulator and in the output block, as values.

  The body has three cases by the position `i` of the grid point in its run of 32: the first point of a run
  (the accumulator is reset to zero, then the point's tile sum is added), a middle point (the tile sum is added
  to what the point before left), and the last point (the same, and the accumulator is then copied to the
  output block). Every load and store goes through the whole 8 × 128 buffer, so a store leaves exactly its
  value, a load after a store reads that value, and the blocks are read as they are. Hence: after a first
  point the accumulator holds "zero block plus this tile", after any other point "previous contents plus this
  tile", and at a last point the output block holds the accumulator's new contents.
-/
import proofs.«157784_j45045617001061_2_alg».proof.Proof.Gen.KernelIdeal.Frame
import Idealize.ShloMosaic.Lib.Pipeline.Value
import Idealize.ShloMosaic.Lib.Tactic

noncomputable section

namespace Cert.KernelIdeal.Pieces

open Idealize.ShloMosaic Idealize.ShloMosaic.TcCoe Idealize.SL.Sem Cert.KernelIdeal Cert.KernelIdeal.Gen

variable {F : FTy → Type} [FloatOps F]

theorem hz : (![0, 0] : Fin 2 → Nat) = fun _ => 0 := funext fun a => by fin_cases a <;> rfl

/-- First point of a run: the accumulator ends at the zero block plus the point's addend. -/
theorem acc_first (c : Dev nD) (i : grid0.Coords) (arg2 : Memref sig .tc .vmem S256x4096 .f32) (harg2 : arg2.IsWhole) (arg3 : Memref sig .tc .vmem S256x4096 .i32) (harg3 : arg3.IsWhole) (arg4 : Memref sig .tc .vmem S8x128 .f32) (harg4 : arg4.IsWhole) (arg5 : Memref sig .tc .vmem S8x128 .f32) (harg5 : arg5.IsWhole) (hc0 : cond0_0 i) (hc1 : ¬cond0_1 i)
    (x0 : Vec F S256x4096 .f32) (x1 : Vec F S256x4096 .i32) :
    sout0_A_0 c i arg2 harg2 arg3 harg3 arg4 harg4 arg5 harg5 hc0 hc1 x0 x1 = k0_pay2 x0 x1 k0_pay1 := by
  unfold sout0_A_0
  rw [View.read_writes_eq_canon _ _ _ (scover0_A_0 c i arg2 harg2 arg3 harg3 arg4 harg4 arg5 harg5 hc0 hc1 x0 x1)]
  unfold kernelRun0_A
  dsimp only
  sl_unfold_words
  rw [View.canon_cons_unit_zero (S := S8x128) hz, View.readCov_unit_zero (S := S8x128) _ hz]
  simp only [View.readAt_eq_ld, harg2.read_unread, harg3.read_unread, View.ld_unit_zero (S := S256x4096) hz]

/-- A middle point: the accumulator ends at its previous contents plus the point's addend. -/
theorem acc_middle (c : Dev nD) (i : grid0.Coords) (arg2 : Memref sig .tc .vmem S256x4096 .f32) (harg2 : arg2.IsWhole) (arg3 : Memref sig .tc .vmem S256x4096 .i32) (harg3 : arg3.IsWhole) (arg4 : Memref sig .tc .vmem S8x128 .f32) (harg4 : arg4.IsWhole) (arg5 : Memref sig .tc .vmem S8x128 .f32) (harg5 : arg5.IsWhole) (hc0 : ¬cond0_0 i) (hc1 : ¬cond0_1 i)
    (x0 : Vec F S256x4096 .f32) (x1 : Vec F S256x4096 .i32) (xs0 : Vec F S8x128 .f32) :
    sout0_B_0 c i arg2 harg2 arg3 harg3 arg4 harg4 arg5 harg5 hc0 hc1 x0 x1 xs0 = k0_pay2 x0 x1 xs0 := by
  unfold sout0_B_0
  rw [View.read_writes_eq_canon _ _ _ (scover0_B_0 c i arg2 harg2 arg3 harg3 arg4 harg4 arg5 harg5 hc0 hc1 x0 x1 xs0)]
  unfold kernelRun0_B
  dsimp only
  sl_unfold_words
  rw [View.canon_unit_zero (S := S8x128) hz]
  simp only [View.readAt_eq_ld, harg2.read_unread, harg3.read_unread, harg5.read_unread,
    View.ld_unit_zero (S := S256x4096) hz, View.ld_unit_zero (S := S8x128) hz]

/-- The last point of a run: the accumulator ends as at a middle point, -/
theorem acc_last (c : Dev nD) (i : grid0.Coords) (arg2 : Memref sig .tc .vmem S256x4096 .f32) (harg2 : arg2.IsWhole) (arg3 : Memref sig .tc .vmem S256x4096 .i32) (harg3 : arg3.IsWhole) (arg4 : Memref sig .tc .vmem S8x128 .f32) (harg4 : arg4.IsWhole) (arg5 : Memref sig .tc .vmem S8x128 .f32) (harg5 : arg5.IsWhole) (hc0 : ¬cond0_0 i) (hc1 : cond0_1 i)
    (x0 : Vec F S256x4096 .f32) (x1 : Vec F S256x4096 .i32) (xs0 : Vec F S8x128 .f32) :
    sout0_C_0 c i arg2 harg2 arg3 harg3 arg4 harg4 arg5 harg5 hc0 hc1 x0 x1 xs0 = k0_pay2 x0 x1 xs0 := by
  unfold sout0_C_0
  rw [View.read_writes_eq_canon _ _ _ (scover0_C_0 c i arg2 harg2 arg3 harg3 arg4 harg4 arg5 harg5 hc0 hc1 x0 x1 xs0)]
  unfold kernelRun0_C
  dsimp only
  sl_unfold_words
  rw [View.canon_unit_zero (S := S8x128) hz]
  simp only [View.readAt_eq_ld, harg2.read_unread, harg3.read_unread, harg5.read_unread,
    View.ld_unit_zero (S := S256x4096) hz, View.ld_unit_zero (S := S8x128) hz]

/-- and the output block holds the accumulator's new contents. -/
theorem out_last (c : Dev nD) (i : grid0.Coords) (arg2 : Memref sig .tc .vmem S256x4096 .f32) (harg2 : arg2.IsWhole) (arg3 : Memref sig .tc .vmem S256x4096 .i32) (harg3 : arg3.IsWhole) (arg4 : Memref sig .tc .vmem S8x128 .f32) (harg4 : arg4.IsWhole) (arg5 : Memref sig .tc .vmem S8x128 .f32) (harg5 : arg5.IsWhole) (hc0 : ¬cond0_0 i) (hc1 : cond0_1 i)
    (x0 : Vec F S256x4096 .f32) (x1 : Vec F S256x4096 .i32) (xs0 : Vec F S8x128 .f32) :
    out0_C_2 c i arg2 harg2 arg3 harg3 arg4 harg4 arg5 harg5 hc0 hc1 x0 x1 xs0 = k0_pay2 x0 x1 xs0 := by
  unfold out0_C_2
  rw [View.read_writes_eq_canon _ _ _ (cover0_C_2 c i arg2 harg2 arg3 harg3 arg4 harg4 arg5 harg5 hc0 hc1 x0 x1 xs0)]
  unfold kernelRun0_C
  dsimp only
  sl_unfold_words
  rw [View.canon_unit_zero (S := S8x128) hz, View.readCov_unit_zero (S := S8x128) _ hz]
  simp only [View.readAt_eq_ld, harg2.read_unread, harg3.read_unread, harg5.read_unread,
    View.ld_unit_zero (S := S256x4096) hz, View.ld_unit_zero (S := S8x128) hz]

end Cert.KernelIdeal.Pieces

end
-- ==== Proof.Spec.lean ====
/-
  The mathematics of the mean log-likelihood of binary labels, with no program in sight.

  For a probability array `p` and a label array `t`, both 16384 × 4096, one element contributes
  `log (1 + -p)` where its label is zero and `log p` otherwise (`term`). One side takes the
  logarithm after choosing its argument, `log (if t = 0 then 1 - p else p)`; on the extended reals
  `1 - p` is `1 + -p`, so the two spellings are one function at every value, the infinities
  included (`log_select`).

  The total over all elements is taken in two arrangements: as one sum over every index of the array,
  and as a sum over 64 row tiles of 256 rows each (`tile`), the tiles themselves added up in two runs of
  32 consecutive tiles (`running`) whose two last values are added at the end. Addition of extended reals
  is commutative and associative, so both arrangements give the same total (`sum_all`,
  `running_last`); no finiteness is needed.
-/
import Idealize.ShloMosaic.PureOps.Ideal.Laws
import Idealize.ShloMosaic.Lib.ValueIdx

noncomputable section

open scoped BigOperators

namespace Cert.LogLik

open Idealize.ShloMosaic Idealize.ShloMosaic.ValueIdx Finset

/-- The shape of both argument arrays. -/
abbrev Arr : Shape := ⟨2, ![16384, 4096]⟩
/-- The shape of one tile of 256 rows. -/
abbrev Tile : Shape := ⟨2, ![256, 4096]⟩

/-- One element's log-likelihood: `log (1 + -p)` where the label is zero, `log p` otherwise. -/
def term (p : EReal) (t : BitVec 32) : EReal :=
  Scalar.select (IntOp.cmpi .eq t 0#32) (Ideal.log1p (-p)) (Ideal.log p)

/-- Choosing the logarithm's argument first and taking ONE logarithm gives the same element:
    `1 - p` is `1 + -p` on the extended reals. `one` is any spelling of the number one. -/
theorem log_select (one p : EReal) (t : BitVec 32) (h1 : one = 1) :
    Ideal.log (Scalar.select (IntOp.cmpi .eq t 0#32) (one - p) p) = term p t := by
  subst h1
  unfold term Scalar.select
  split
  · rw [Ideal.log1p, sub_eq_add_neg]
  · rfl

/-- The array of elements read at natural coordinates (zero outside the array, which is never read). -/
def cell (x0 : Arr.Idx → EReal) (x1 : Arr.Idx → BitVec 32) (R l : ℕ) : EReal :=
  if h : R < 16384 ∧ l < 4096 then term (x0 (ix2 ⟨R, h.1⟩ ⟨l, h.2⟩)) (x1 (ix2 ⟨R, h.1⟩ ⟨l, h.2⟩)) else 0

theorem cell_eq (x0 : Arr.Idx → EReal) (x1 : Arr.Idx → BitVec 32) (R : Fin 16384) (l : Fin 4096) :
    cell x0 x1 R.val l.val = term (x0 (ix2 R l)) (x1 (ix2 R l)) := by
  unfold cell
  rw [dif_pos ⟨R.isLt, l.isLt⟩]

/-- The sum of the elements of row tile `t`: rows `256 t … 256 t + 255`, every lane. -/
def tile (x0 : Arr.Idx → EReal) (x1 : Arr.Idx → BitVec 32) (t : ℕ) : EReal :=
  ∑ r ∈ range 256, ∑ l ∈ range 4096, cell x0 x1 (256 * t + r) l

/-- A tile's sum from the tile's own blocks: when block `b0`, `b1` at `(r, l)` is the array at
    `(256 t + r, l)`, the double sum over the block is the tile's sum. -/
theorem tile_of_block (x0 : Arr.Idx → EReal) (x1 : Arr.Idx → BitVec 32) (t : ℕ) (ht : t < 64)
    (b0 : Tile.Idx → EReal) (b1 : Tile.Idx → BitVec 32)
    (h0 : ∀ (r : Fin 256) (l : Fin 4096) (R : Fin 16384), R.val = 256 * t + r.val → b0 (ix2 r l) = x0 (ix2 R l))
    (h1 : ∀ (r : Fin 256) (l : Fin 4096) (R : Fin 16384), R.val = 256 * t + r.val → b1 (ix2 r l) = x1 (ix2 R l)) :
    ∑ r : Fin 256, ∑ l : Fin 4096, term (b0 (ix2 r l)) (b1 (ix2 r l)) = tile x0 x1 t := by
  unfold tile
  rw [Finset.sum_range]
  refine Finset.sum_congr rfl fun r _ => ?_
  rw [Finset.sum_range]
  refine Finset.sum_congr rfl fun l _ => ?_
  have hR : 256 * t + r.val < 16384 := by have := r.isLt; omega
  rw [h0 r l ⟨256 * t + r.val, hR⟩ rfl, h1 r l ⟨256 * t + r.val, hR⟩ rfl]
  exact (cell_eq x0 x1 ⟨256 * t + r.val, hR⟩ l).symm

/-- A sum over `n k` consecutive naturals is the sum over `n` blocks of `k`. -/
theorem sum_range_blocks {M : Type*} [AddCommMonoid M] (f : ℕ → M) (k : ℕ) :
    ∀ n : ℕ, ∑ R ∈ range (n * k), f R = ∑ t ∈ range n, ∑ r ∈ range k, f (k * t + r)
  | 0 => by simp
  | n + 1 => by
    rw [add_mul, one_mul, Finset.sum_range_add, sum_range_blocks f k n, Finset.sum_range_succ, Nat.mul_comm n k]

/-- The total over every index of the array is the sum of the 64 tiles. -/
theorem sum_all (x0 : Arr.Idx → EReal) (x1 : Arr.Idx → BitVec 32) :
    ∑ j : Arr.Idx, term (x0 j) (x1 j) = ∑ t ∈ range 64, tile x0 x1 t := by
  have hrow : ∀ a : Fin 16384, ∑ b : Fin 4096, term (x0 (ix2 a b)) (x1 (ix2 a b)) = ∑ l ∈ range 4096, cell x0 x1 a.val l := by
    intro a
    rw [Finset.sum_range]
    exact Finset.sum_congr rfl fun b _ => (cell_eq x0 x1 a b).symm
  calc ∑ j : Arr.Idx, term (x0 j) (x1 j)
      = ∑ a : Fin 16384, ∑ b : Fin 4096, term (x0 (ix2 a b)) (x1 (ix2 a b)) := sum_idx2 _
    _ = ∑ a : Fin 16384, ∑ l ∈ range 4096, cell x0 x1 a.val l := Finset.sum_congr rfl fun a _ => hrow a
    _ = ∑ R ∈ range 16384, ∑ l ∈ range 4096, cell x0 x1 R l :=
        (Finset.sum_range (fun R => ∑ l ∈ range 4096, cell x0 x1 R l)).symm
    _ = ∑ t ∈ range 64, tile x0 x1 t := by
        unfold tile
        exact sum_range_blocks (fun R => ∑ l ∈ range 4096, cell x0 x1 R l) 256 64

/-- The running total after tile `n`: the tiles of `n`'s run of 32 consecutive tiles, up to `n`. -/
def running (x0 : Arr.Idx → EReal) (x1 : Arr.Idx → BitVec 32) (n : ℕ) : EReal :=
  ∑ s ∈ range (n % 32 + 1), tile x0 x1 (32 * (n / 32) + s)

/-- At the first tile of a run the running total is that tile. -/
theorem running_first (x0 : Arr.Idx → EReal) (x1 : Arr.Idx → BitVec 32) (n : ℕ) (h : n % 32 = 0) :
    running x0 x1 n = tile x0 x1 n := by
  unfold running
  have e : n % 32 + 1 = 1 := by omega
  rw [e, Finset.sum_range_one]
  have e' : 32 * (n / 32) + 0 = n := by omega
  rw [e']

/-- At a later tile of a run it is the total before plus that tile. -/
theorem running_step (x0 : Arr.Idx → EReal) (x1 : Arr.Idx → BitVec 32) (n : ℕ) (h : ¬(n + 1) % 32 = 0) :
    running x0 x1 (n + 1) = running x0 x1 n + tile x0 x1 (n + 1) := by
  unfold running
  have e1 : (n + 1) % 32 + 1 = (n % 32 + 1) + 1 := by omega
  have e2 : (n + 1) / 32 = n / 32 := by omega
  have e3 : 32 * (n / 32) + (n % 32 + 1) = n + 1 := by omega
  rw [e1, e2, Finset.sum_range_succ, e3]

/-- The two runs' last running totals add up to all 64 tiles. -/
theorem running_last (x0 : Arr.Idx → EReal) (x1 : Arr.Idx → BitVec 32) :
    running x0 x1 31 + running x0 x1 63 = ∑ t ∈ range 64, tile x0 x1 t := by
  have h0 : running x0 x1 31 = ∑ s ∈ range 32, tile x0 x1 s := by
    unfold running
    refine Finset.sum_congr rfl fun s _ => ?_
    have e : 32 * (31 / 32) + s = s := by omega
    rw [e]
  have h1 : running x0 x1 63 = ∑ s ∈ range 32, tile x0 x1 (32 + s) := by
    unfold running
    refine Finset.sum_congr rfl fun s _ => ?_
    have e : 32 * (63 / 32) + s = 32 + s := by omega
    rw [e]
  rw [h0, h1, ← Finset.sum_range_add]

/-- The shared end of both programs: divide the total by the element count `2 ^ 26` and negate. -/
def negMean (s : (⟨0, ![]⟩ : Shape).Idx → Ideal .f32) : (⟨0, ![]⟩ : Shape).Idx → Ideal .f32 :=
  Host.negf (F := Ideal) (Host.divf (F := Ideal) s (constant (F := Ideal) ⟨0, ![]⟩ .f32 0x4C800000#32))

/-- The result both programs compute: minus the mean of all elements' log-likelihoods. -/
def result (x0 : Arr.Idx → EReal) (x1 : Arr.Idx → BitVec 32) : (⟨0, ![]⟩ : Shape).Idx → Ideal .f32 :=
  negMean fun _ => ∑ t ∈ range 64, tile x0 x1 t

end Cert.LogLik

end
-- ==== Proof.Payload.lean ====
/-
  What one grid point adds to the accumulator, read at an index of the accumulator.

  The body takes a 256 × 4096 block of probabilities and of labels, forms each element's
  log-likelihood (one logarithm of the chosen argument), sums every row over its 4096 lanes, sums the 256
  row sums, and adds that one number to every entry of the 8 × 128 accumulator. At the exact values a
  lane sum and a row sum are plain finite sums (no initial value is added: the accumulator word of the
  reduction is its neutral element), and the casts between [256], [256, 1], [1] and [1, 1] keep row-major
  position, so the entry at (a, b) becomes the old entry plus the double sum of the block's elements.
-/
import proofs.«157784_j45045617001061_2_alg».proof.Proof.Gen.KernelIdeal.Skeleton
import proofs.«157784_j45045617001061_2_alg».proof.Proof.Spec
import Idealize.ShloMosaic.Lib.Pipeline.Value
import Idealize.ShloMosaic.Lib.ValueIdx
import Idealize.ShloMosaic.PureOps.Ideal.Laws

noncomputable section

open scoped BigOperators

namespace Cert.KernelIdeal.Payload

open Idealize.ShloMosaic Idealize.ShloMosaic.ValueIdx Cert.KernelIdeal Cert.KernelIdeal.Gen Cert.LogLik

/-- The word `0x3F800000` is the number one. -/
theorem one_f32 : Ideal.ofBits .f32 0x3F800000#32 = 1 := IdealRules.sign_bit.ideal_onePat .f32

/-- A lane sum of a [256, 4096] vector at row `r`: the sum over the lanes of the row's entries. -/
theorem lane_sum (v : FVec Ideal S256x4096 .f32) (h : S256x4096.Reduces [1] S256) (hφ : FKind.Formats .f32)
    (hacc : (0x00000000#32 : BitVec 32) = FKind.add.neutral .f32 hφ) (r : Fin 256) :
    multiReduction (F := Ideal) .add [1] S256 v 0x00000000#32 h hφ hacc (ix1 r) = ∑ l : Fin 4096, v (ix2 r l) :=
  (Ideal.multiReduction_add_single v 0x00000000#32 h hφ hacc (ix1 r)).trans
    (Finset.sum_congr rfl fun l _ => congrArg v (funext fun a => Fin.ext (by
      match a with
      | ⟨0, _⟩ => rfl
      | ⟨1, _⟩ => rfl)))

/-- The sum down the one column of a [256, 1] vector: the sum over the rows. -/
theorem column_sum (v : FVec Ideal S256x1 .f32) (h : S256x1.Reduces [0] S1) (hφ : FKind.Formats .f32)
    (hacc : (0x00000000#32 : BitVec 32) = FKind.add.neutral .f32 hφ) :
    multiReduction (F := Ideal) .add [0] S1 v 0x00000000#32 h hφ hacc (ix1 (0 : Fin 1)) = ∑ r : Fin 256, v (ix2 r (0 : Fin 1)) :=
  (Ideal.multiReduction_add_single v 0x00000000#32 h hφ hacc (ix1 (0 : Fin 1))).trans
    (Finset.sum_congr rfl fun r _ => congrArg v (funext fun a => Fin.ext (by
      match a with
      | ⟨0, _⟩ => rfl
      | ⟨1, _⟩ => rfl)))

/-- The accumulating store's value at entry `(a, b)`: the accumulator's entry plus the sum of the block's
    elements. -/
theorem pay2_apply (x0 : Vec Ideal S256x4096 .f32) (x1 : Vec Ideal S256x4096 .i32) (acc : Vec Ideal S8x128 .f32)
    (a : Fin 8) (b : Fin 128) :
    k0_pay2 (F := Ideal) x0 x1 acc (ix2 a b)
      = acc (ix2 a b) + ∑ r : Fin 256, ∑ l : Fin 4096, term (x0 (ix2 r l)) (x1 (ix2 r l)) := by
  unfold k0_pay2
  dsimp only
  refine (congrFun (shapeCast_self _ _) _).trans ?_
  show acc (ix2 a b) + _ = _
  refine congrArg (acc (ix2 a b) + ·) ?_
  refine (broadcastTo_apply _ _ (ix2 a b) (ix2 (0 : Fin 1) (0 : Fin 1)) (fun ax => ?_)).trans ?_
  · match ax with
    | ⟨0, _⟩ => rfl
    | ⟨1, _⟩ => rfl
  refine (congrFun (shapeCast_self _ _) _).trans ?_
  refine (shapeCast_apply _ _ (ix2 (0 : Fin 1) (0 : Fin 1)) (ix1 (0 : Fin 1)) ?_).trans ?_
  · rw [Shape.rowMajor_val_one, Shape.rowMajor_val_two]
    rfl
  refine (column_sum _ _ _ _).trans (Finset.sum_congr rfl fun r _ => ?_)
  refine (shapeCast_apply _ _ (ix2 r (0 : Fin 1)) (ix1 r) ?_).trans ?_
  · rw [Shape.rowMajor_val_one, Shape.rowMajor_val_two]
    show r.val = r.val * 1 + 0
    omega
  refine (lane_sum _ _ _ _ r).trans (Finset.sum_congr rfl fun l _ => ?_)
  show Ideal.log (Scalar.select (IntOp.cmpi .eq (x1 (ix2 r l)) 0#32) (Ideal.ofBits .f32 0x3F800000#32 - x0 (ix2 r l)) (x0 (ix2 r l))) = _
  exact log_select _ _ _ one_f32

/-- The resetting store's value: zero at every entry. -/
theorem pay1_apply (j : S8x128.Idx) : k0_pay1 (F := Ideal) j = 0 := by
  unfold k0_pay1
  refine (congrFun (shapeCast_self _ _) _).trans ?_
  show Ideal.ofBits .f32 0x00000000#32 = 0
  exact Ideal.ofBits_zero_f32

end Cert.KernelIdeal.Payload

end
-- ==== Proof.Blocks.lean ====
/-
  Which rows of the argument arrays a grid point's blocks hold.

  The grid has 2 × 32 points; point `t` (counted row-major) stages block row `32 · (t / 32) + t % 32 = t`
  of both argument arrays, so entry `(r, l)` of its block is the array's entry `(256 t + r, l)`; the output
  block of point `t` is block row `t / 32` of the 16 × 128 result array.
-/
import proofs.«157784_j45045617001061_2_alg».proof.Proof.Gen.KernelIdeal.Frame
import Idealize.ShloMosaic.Lib.Pipeline.Value
import Idealize.ShloMosaic.Lib.ValueIdx

noncomputable section

namespace Cert.KernelIdeal.Blocks

open Idealize.ShloMosaic Idealize.ShloMosaic.TcCoe Idealize.SL.Sem Idealize.ShloMosaic.ValueIdx Cert.KernelIdeal Cert.KernelIdeal.Gen

variable {F : FTy → Type} [FloatOps F]
variable (m : (ℓ : Loc nD τ sig) → Buf (Elt F) ℓ)

/-- The windows' block indices at every point, decided over the grid. -/
theorem idx_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = t.val / 32 ∧ win0_2.index t (1 : Fin 2) = 0 :=
  (by decide +kernel : ∀ t : Fin grid0.N, _)

/-- Entry `(r, l)` of the probabilities' block at point `t` is the array's entry `(256 t + r, l)`. -/
theorem probs_apply (c : Dev nD) (t : Fin cfg0.N) (r : Fin 256) (l : Fin 4096) (R : Fin 16384)
    (hR : R.val = 256 * t.val + r.val) :
    (iblk m c 0 t : Vec F S256x4096 .f32) (ix2 r l) = m ((c : Thread nD τ).loc main_arg0) (ix2 R l) := by
  obtain ⟨e0, e1, -, -, -, -⟩ := idx_facts t
  unfold iblk
  rw [View.read_apply]
  show V m c main_arg0 _ = m (c.tc.loc main_arg0) _
  rw [V_main_arg0]
  refine congrArg _ (funext fun a => Fin.ext ?_)
  match a with
  | ⟨0, _⟩ => show win0_0.index t (0 : Fin 2) * 256 + 1 * r.val = R.val; rw [e0]; omega
  | ⟨1, _⟩ => show win0_0.index t (1 : Fin 2) * 4096 + 1 * l.val = l.val; rw [e1]; omega

/-- The same for the labels' block. -/
theorem labels_apply (c : Dev nD) (t : Fin cfg0.N) (r : Fin 256) (l : Fin 4096) (R : Fin 16384)
    (hR : R.val = 256 * t.val + r.val) :
    (iblk m c 1 t : Vec F S256x4096 .i32) (ix2 r l) = m ((c : Thread nD τ).loc main_arg1) (ix2 R l) := by
  obtain ⟨-, -, e0, e1, -, -⟩ := idx_facts t
  unfold iblk
  rw [View.read_apply]
  show V m c main_arg1 _ = m (c.tc.loc main_arg1) _
  rw [V_main_arg1]
  refine congrArg _ (funext fun a => Fin.ext ?_)
  match a with
  | ⟨0, _⟩ => show win0_1.index t (0 : Fin 2) * 256 + 1 * r.val = R.val; rw [e0]; omega
  | ⟨1, _⟩ => show win0_1.index t (1 : Fin 2) * 4096 + 1 * l.val = l.val; rw [e1]; omega

end Cert.KernelIdeal.Blocks

end
-- ==== Proof.Accum.lean ====
/-
  The accumulator after every grid point, by induction on the point.

  Point `t` adds the sum of row tile `t` to every entry of the accumulator; the first point of each run
  of 32 starts from zero. So after point `n` every entry of the accumulator is the running total of
  `n`'s run — the tiles `32 (n / 32) … n` — and at the last point of a run the output block holds the same.
-/
import proofs.«157784_j45045617001061_2_alg».proof.Proof.Pieces
import proofs.«157784_j45045617001061_2_alg».proof.Proof.Payload
import proofs.«157784_j45045617001061_2_alg».proof.Proof.Blocks
import proofs.«157784_j45045617001061_2_alg».proof.Proof.Spec

noncomputable section

open scoped BigOperators

namespace Cert.KernelIdeal.Accum

open Idealize.ShloMosaic Idealize.ShloMosaic.TcCoe Idealize.SL.Sem Idealize.ShloMosaic.ValueIdx
open Cert.KernelIdeal Cert.KernelIdeal.Gen Cert.LogLik
open Cert.KernelIdeal.Pieces Cert.KernelIdeal.Payload Cert.KernelIdeal.Blocks

variable (m : (ℓ : Loc nD τ sig) → Buf (Elt Ideal) ℓ)

/-- The probabilities and the labels on core `c`, as the run finds them. -/
abbrev probs (c : Dev nD) : Arr.Idx → EReal := m ((c : Thread nD τ).loc main_arg0)
abbrev labels (c : Dev nD) : Arr.Idx → BitVec 32 := m ((c : Thread nD τ).loc main_arg1)

/-- The sum of the elements of point `t`'s blocks is the sum of row tile `t`. -/
theorem addend (c : Dev nD) (t : Fin cfg0.N) :
    ∑ r : Fin 256, ∑ l : Fin 4096, term ((iblk m c 0 t : Vec Ideal S256x4096 .f32) (ix2 r l)) ((iblk m c 1 t : Vec Ideal S256x4096 .i32) (ix2 r l))
      = tile (probs m c) (labels m c) t.val :=
  tile_of_block (probs m c) (labels m c) t.val (by have := t.isLt; have h : cfg0.N = 64 := N_0; omega)
    (iblk m c 0 t : Vec Ideal S256x4096 .f32) (iblk m c 1 t : Vec Ideal S256x4096 .i32)
    (fun r l R hR => probs_apply m c t r l R hR) (fun r l R hR => labels_apply m c t r l R hR)

/-- One accumulating step at an entry: the previous entry plus tile `t`. -/
theorem step_apply (c : Dev nD) (t : Fin cfg0.N) (before : Vec Ideal S8x128 .f32) (a : Fin 8) (b : Fin 128) :
    k0_pay2 (F := Ideal) (iblk m c 0 t) (iblk m c 1 t) before (ix2 a b)
      = before (ix2 a b) + tile (probs m c) (labels m c) t.val :=
  (pay2_apply (iblk m c 0 t) (iblk m c 1 t) before a b).trans (congrArg (before (ix2 a b) + ·) (addend m c t))

/-- A step from the zero block at an entry: tile `t`. -/
theorem first_apply (c : Dev nD) (t : Fin cfg0.N) (a : Fin 8) (b : Fin 128) :
    k0_pay2 (F := Ideal) (iblk m c 0 t) (iblk m c 1 t) (k0_pay1 (F := Ideal)) (ix2 a b) = tile (probs m c) (labels m c) t.val := by
  rw [step_apply m c t (k0_pay1 (F := Ideal)) a b, pay1_apply, zero_add]

/-- After point `n` every entry of the accumulator is the running total of `n`'s run. -/
theorem acc_eq (c : Dev nD) : ∀ (n : ℕ) (hn : n < cfg0.N) (a : Fin 8) (b : Fin 128),
    (outsAt0 m c n hn).2 (ix2 a b) = running (probs m c) (labels m c) n
  | 0, hn, a, b => by
    have h1 : ¬(⟨0, hn⟩ : Fin cfg0.N).val % 32 = 31 := by dsimp only; omega
    rw [outsAt0_A m c ⟨0, hn⟩ rfl h1]
    dsimp only
    refine (congrFun (acc_first (F := Ideal) c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0_0 (Memref.isWhole_whole _) _ _ (iblk m c 0 ⟨0, hn⟩) (iblk m c 1 ⟨0, hn⟩)) (ix2 a b)).trans ?_
    rw [first_apply m c ⟨0, hn⟩ a b, running_first _ _ 0 rfl]
  | n + 1, hn, a, b => by
    have hN : cfg0.N = 64 := N_0
    by_cases h0 : (n + 1) % 32 = 0
    · have h1 : ¬(⟨n + 1, hn⟩ : Fin cfg0.N).val % 32 = 31 := by dsimp only; omega
      rw [outsAt0_A m c ⟨n + 1, hn⟩ h0 h1]
      dsimp only
      refine (congrFun (acc_first (F := Ideal) c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) _ _ (iblk m c 0 ⟨n + 1, hn⟩) (iblk m c 1 ⟨n + 1, hn⟩)) (ix2 a b)).trans ?_
      rw [first_apply m c ⟨n + 1, hn⟩ a b, running_first _ _ (n + 1) h0]
    · by_cases h1 : (n + 1) % 32 = 31
      · rw [outsAt0_C m c ⟨n + 1, hn⟩ h0 h1]
        dsimp only
        refine (congrFun (acc_last (F := Ideal) c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) _ _ (iblk m c 0 ⟨n + 1, hn⟩) (iblk m c 1 ⟨n + 1, hn⟩) _) (ix2 a b)).trans ?_
        rw [step_apply m c ⟨n + 1, hn⟩ _ a b, running_step _ _ n h0]
        refine congrArg (· + tile (probs m c) (labels m c) (n + 1)) ?_
        exact acc_eq c n (Nat.lt_of_succ_lt hn) a b
      · rw [outsAt0_B m c ⟨n + 1, hn⟩ h0 h1]
        dsimp only
        refine (congrFun (acc_middle (F := Ideal) c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) _ _ (iblk m c 0 ⟨n + 1, hn⟩) (iblk m c 1 ⟨n + 1, hn⟩) _) (ix2 a b)).trans ?_
        rw [step_apply m c ⟨n + 1, hn⟩ _ a b, running_step _ _ n h0]
        refine congrArg (· + tile (probs m c) (labels m c) (n + 1)) ?_
        exact acc_eq c n (Nat.lt_of_succ_lt hn) a b

/-- At the last point of a run the output block holds what the accumulator holds. -/
theorem out_eq_acc (c : Dev nD) (t : Fin cfg0.N) (h1 : t.val % 32 = 31) :
    (outsAt0 m c t.val t.isLt).1 = (outsAt0 m c t.val t.isLt).2 := by
  have h0 : ¬t.val % 32 = 0 := by omega
  rw [outsAt0_C m c t h0 h1]
  dsimp only
  exact (out_last (F := Ideal) c (grid0.coords t) (ms0_0 t) (hs0_0 t) (ms0_1 t) (hs0_1 t) (ms0_2 t) (hs0_2 t) scM0_0 (Memref.isWhole_whole _) _ _ (iblk m c 0 t) (iblk m c 1 t) (outsAt0 m c (t.val - 1) (Nat.lt_of_le_of_lt (Nat.sub_le _ _) t.isLt)).2).trans
    (acc_last (F := Ideal) c (grid0.coords t) (ms0_0 t) (hs0_0 t) (ms0_1 t) (hs0_1 t) (ms0_2 t) (hs0_2 t) scM0_0 (Memref.isWhole_whole _) _ _ (iblk m c 0 t) (iblk m c 1 t) (outsAt0 m c (t.val - 1) (Nat.lt_of_le_of_lt (Nat.sub_le _ _) t.isLt)).2).symm

/-- So the block written back at the last point of a run is that run's total, at every entry. -/
theorem out_eq (c : Dev nD) (t : Fin cfg0.N) (h1 : t.val % 32 = 31) (a : Fin 8) (b : Fin 128) :
    (outsAt0 m c t.val t.isLt).1 (ix2 a b) = running (probs m c) (labels m c) t.val := by
  rw [out_eq_acc m c t h1]
  exact acc_eq m c t.val t.isLt a b

end Cert.KernelIdeal.Accum

end
-- ==== Proof.Final.lean ====
/-
  The result array after the run, the lines after the region, and the kernel program's run.

  The output block is written back only at the last point of each run of 32 points, and there it holds the
  run's total at every entry; point `32 q + 31` writes block row `q` of the 16 × 128 result array. So after the
  region the result array holds, at every entry of rows `8 q … 8 q + 7`, the total of run `q`
  (`totals`); the two block rows cover the array. The lines after the region read entries (0, 0) and (8, 0),
  add them, divide by the element count and negate: the shared end `negMean` of the sum of the two runs'
  totals, which is the sum of all 64 tiles.
-/
import proofs.«157784_j45045617001061_2_alg».proof.Proof.Accum
import Idealize.ShloMosaic.Lib.Pipeline.Value
import Idealize.ShloMosaic.Lib.StableHlo.Run
import Idealize.ShloMosaic.Lib.ValueIdx

noncomputable section

open scoped BigOperators

namespace Cert.KernelIdeal.Final

open Idealize.ShloMosaic Idealize.ShloMosaic.TcCoe Idealize.SL.Sem Idealize.ShloMosaic.ValueIdx
open Idealize.ShloMosaic.Pipeline (Dat)
open Cert.KernelIdeal Cert.KernelIdeal.Gen Cert.LogLik
open Cert.KernelIdeal.Blocks Cert.KernelIdeal.Accum

variable (m : (ℓ : Loc nD τ sig) → Buf (Elt Ideal) ℓ) (ρ : Dev nD → PrngReg)

/-- The result array after the region: every entry of block row `q` is the total of run `q`. -/
def totals (c : Dev nD) : Buf (Elt Ideal) ((c : Thread nD τ).loc main_v0) :=
  fun i => running (probs m c) (labels m c) (32 * ((i 0).val / 8) + 31)

/-- The output block at the last point of a run holds the run's total at every entry. -/
theorem out_apply (c : Dev nD) (t : Fin cfg0.N) (h1 : t.val % 32 = 31) (j : S8x128.Idx) :
    (outsAt0 m c t.val t.isLt).1 j = running (probs m c) (labels m c) t.val := by
  rw [eq_ix2 j]
  exact out_eq m c t h1 (j 0) (j 1)

/-- What a flushing point writes back is its block of `totals`. -/
theorem flushed_eq (c : Dev nD) (t : Fin cfg0.N) (hf : (cfg0.win 2).flush t = true) :
    (dats m 0 c).flushed 2 t = ((cfg0.win 2).blk t).view.read (Elt Ideal) (totals m c) := by
  have h31 : t.val % 32 = 31 := (flush0_2 t).mp hf
  obtain ⟨-, -, -, -, e0, -⟩ := idx_facts t
  show (cfg0.win 2).cut (grid0.coords t) ((dats m 0 c).after 2 t) = _
  rw [after0_2]
  funext j
  show (outsAt0 m c t.val t.isLt).1 j = totals m c (((cfg0.win 2).blk t).view.emb j)
  rw [out_apply m c t h31 j]
  unfold totals
  refine congrArg (running (probs m c) (labels m c)) ?_
  show t.val = 32 * ((win0_2.index t (0 : Fin 2) * 8 + 1 * (j 0).val) / 8) + 31
  have hj : (j 0).val < 8 := (j 0).isLt
  rw [e0]
  omega

/-- An index of the result array is in point `t`'s block iff each coordinate is in the block's range. -/
theorem mem_blk (t : Fin cfg0.N) (i : S16x128.Idx) :
    i ∈ ((cfg0.win 2).blk t).view.set ↔ ∀ a : Fin 2, win0_2.index t a * S8x128.size a ≤ (i a).val ∧ (i a).val < win0_2.index t a * S8x128.size a + S8x128.size a := by
  show i ∈ ((View.whole main_v0).slice (win0_2.rect t)).set ↔ _
  rw [View.set_slice_whole, Rect.mem_set_unit]
  exact Iff.rfl

/-- The result array after the region is `totals`: row `r` is covered by the block of point `32 (r / 8) + 31`. -/
theorem final (c : Dev nD) : (dats m 0 c).arrAt 2 cfg0.N = totals m c :=
  (dats m 0 c).arrAt_eq_of_cover 2 (totals m c) (flushed_eq m c) fun i => by
    have hN : cfg0.N = 64 := N_0
    have hi0 : (i 0).val < 16 := (i 0).isLt
    have hi1 : (i 1).val < 128 := (i 1).isLt
    obtain ⟨t, ht⟩ : ∃ t : Fin cfg0.N, t.val = 32 * ((i 0).val / 8) + 31 := ⟨⟨32 * ((i 0).val / 8) + 31, by omega⟩, rfl⟩
    obtain ⟨-, -, -, -, e0, e1⟩ := idx_facts t
    refine ⟨t, (flush0_2 t).mpr (by omega), ?_⟩
    rw [mem_blk]
    intro a
    match a with
    | ⟨0, _⟩ =>
      show win0_2.index t (0 : Fin 2) * 8 ≤ (i 0).val ∧ (i 0).val < win0_2.index t (0 : Fin 2) * 8 + 8
      rw [e0]; omega
    | ⟨1, _⟩ =>
      show win0_2.index t (1 : Fin 2) * 128 ≤ (i 1).val ∧ (i 1).val < win0_2.index t (1 : Fin 2) * 128 + 128
      rw [e1]; omega

/-- Every index of a 1 × 1 array is (0, 0). -/
theorem idx11 (k : S1x1.Idx) : k = ix2 (0 : Fin 1) (0 : Fin 1) := by
  funext a
  match a with
  | ⟨0, _⟩ => exact Fin.ext (by have h : (k 0).val < 1 := (k 0).isLt; show (k 0).val = 0; omega)
  | ⟨1, _⟩ => exact Fin.ext (by have h : (k 1).val < 1 := (k 1).isLt; show (k 1).val = 0; omega)

/-- The 1 × 1 slice at row `o`, lane 0, reshaped to a scalar, is the array's entry `(o, 0)`. -/
theorem corner (Z : S16x128.Idx → Ideal .f32) (o : Fin 16) (off : Fin 2 → Nat) (hoff : off = ![o.val, 0])
    (h1 : S16x128.Slices off S1x1) (h2 : S1x1.ShapeCasts S_) (i : S_.Idx) :
    shapeCast S_ (extractStridedSlice S1x1 off Z h1) h2 i = Z (ix2 o (0 : Fin 128)) := by
  subst hoff
  show extractStridedSlice S1x1 ![o.val, 0] Z h1 (Shape.reshapeEquiv h2 i) = _
  rw [idx11 (Shape.reshapeEquiv h2 i)]
  refine extractStridedSlice_apply _ Z h1 (ix2 (0 : Fin 1) (0 : Fin 1)) (ix2 o (0 : Fin 128)) fun a => ?_
  match a with
  | ⟨0, _⟩ => rfl
  | ⟨1, _⟩ => rfl

/-- The lines after the region, from any contents `W` with the result array at `Z`: the shared end of
    `Z (0, 0) + Z (8, 0)`. -/
theorem tail_of (W : Valuation τ sig (Elt Ideal)) (Z : S16x128.Idx → Ideal .f32) (hW : W (Proc.devRef .tc main_v0) = Z) :
    StableHlo.after hostOps1 W (Proc.devRef .tc main_v7)
      = negMean fun _ => Z (ix2 (0 : Fin 16) (0 : Fin 128)) + Z (ix2 (8 : Fin 16) (0 : Fin 128)) := by
  after_results
  rw [hW]
  refine congrArg negMean (funext fun i => ?_)
  show shapeCast S_ (extractStridedSlice S1x1 ![0, 0] Z slices_S16x128_S1x1_0_0) shapeCasts_S1x1_S_ i
      + shapeCast S_ (extractStridedSlice S1x1 ![8, 0] Z slices_S16x128_S1x1_8_0) shapeCasts_S1x1_S_ i = _
  rw [corner Z (0 : Fin 16) ![0, 0] rfl, corner Z (8 : Fin 16) ![8, 0] rfl]

/-- The program's result after the run is the specification's. -/
theorem tail_eq (c : Dev nD) :
    Pipeline.afterTail₀ cfgs (dats m) 0 (V0 m) [hostOps1] c main_v7 = result (probs m c) (labels m c) := by
  unfold Pipeline.afterTail₀
  show StableHlo.after hostOps1 _ (Proc.devRef .tc main_v7) = _
  rw [tail_of _ (totals m c) ((Pipeline.withArrays_arr spec0 launch0.win.arr_inj c _ _ 2).trans (final m c))]
  unfold result
  refine congrArg negMean (funext fun _ => ?_)
  have e0 : totals m c (ix2 (0 : Fin 16) (0 : Fin 128)) = running (probs m c) (labels m c) 31 :=
    congrArg (running (probs m c) (labels m c)) (by decide : 32 * ((0 : Fin 16).val / 8) + 31 = 31)
  have e1 : totals m c (ix2 (8 : Fin 16) (0 : Fin 128)) = running (probs m c) (labels m c) 63 :=
    congrArg (running (probs m c) (labels m c)) (by decide : 32 * ((8 : Fin 16).val / 8) + 31 = 63)
  rw [e0, e1]
  exact running_last (probs m c) (labels m c)

/-- The result buffer is none of the pipeline's arrays. -/
theorem mem_result : main_v7 ∈ Pipeline.restRefs sig (cfgs 0).spec :=
  Pipeline.mem_restRefs_of main_v7 rfl (by decide)

/-- The run, read: the result at the specification's value, the arguments unchanged. -/
theorem run : θ_run defs (onTc (τ := τ) (main (F := Ideal))) ⟨m, fun _ => 0, ρ⟩ fun r => ∀ c : Dev nD,
      r.2.mem ((c : Thread nD τ).loc main_v7) = result (probs m c) (labels m c)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨((h c).2 main_v7 mem_result).trans (tail_eq m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c)))⟩)
    (run_main m ρ)

end Cert.KernelIdeal.Final

end
-- ==== Proof.RefSide.lean ====
/-
  The reference's result is minus the mean of the elements' log-likelihoods.

  Its program negates, takes `log (1 + ·)` and `log`, selects by the label, sums every element from zero,
  divides by the element count and negates. Element by element the selected value is the specification's
  `term`; the sum from zero over every index is the sum of the 64 row tiles; the division and the negation
  are the shared end `negMean`.
-/
import proofs.«157784_j45045617001061_2_alg».proof.Proof.Gen.ReferenceIdeal.Read
import proofs.«157784_j45045617001061_2_alg».proof.Proof.Spec
import Idealize.ShloMosaic.PureOps.Ideal.Laws
import Idealize.ShloMosaic.Lib.ValueIdx

noncomputable section

open scoped BigOperators

namespace Cert.ReferenceIdeal.RefValue

open Idealize.ShloMosaic Idealize.SL.Sem Cert.ReferenceIdeal Cert.ReferenceIdeal.Read Cert.LogLik

/-- The selected value at an index is that element's log-likelihood. -/
theorem elem (x0 : (⟨S16384x4096, .f32⟩ : BufTy).Contents (Elt Ideal)) (x1 : (⟨S16384x4096, .i32⟩ : BufTy).Contents (Elt Ideal))
    (j : S16384x4096.Idx) : val_main_v5 (F := Ideal) x0 x1 j = term (x0 j) (x1 j) := rfl

/-- The sum from zero over every element is the sum of the 64 row tiles. -/
theorem total (x0 : (⟨S16384x4096, .f32⟩ : BufTy).Contents (Elt Ideal)) (x1 : (⟨S16384x4096, .i32⟩ : BufTy).Contents (Elt Ideal))
    (i : S_.Idx) : val_main_v6 (F := Ideal) x0 x1 i = ∑ t ∈ Finset.range 64, tile x0 x1 t := by
  rw [val_main_v6_apply, val_main_cst_apply]
  show Ideal.ofBits .f32 0x00000000#32 + _ = _
  rw [Ideal.ofBits_zero_f32, zero_add]
  exact (Finset.sum_congr rfl fun j _ => elem x0 x1 j).trans (sum_all x0 x1)

/-- The reference's result is the specification's. -/
theorem result_eq (x0 : (⟨S16384x4096, .f32⟩ : BufTy).Contents (Elt Ideal)) (x1 : (⟨S16384x4096, .i32⟩ : BufTy).Contents (Elt Ideal)) :
    val_main_v8 (F := Ideal) x0 x1 = result x0 x1 := by
  show negMean (val_main_v6 (F := Ideal) x0 x1) = negMean _
  exact congrArg negMean (funext fun i => total x0 x1 i)

end Cert.ReferenceIdeal.RefValue

end
-- ==== Proof.lean ====
/-
  Minus the mean log-likelihood of binary labels: a tiled kernel against `-mean (where (t = 0) (log1p (-p)) (log p))`.

  The kernel walks the 16384 × 4096 arrays in 64 row tiles of 256 rows, in two runs of 32 tiles. At each tile
  it takes ONE logarithm per element, of `1 - p` where the label is zero and of `p` otherwise, sums the
  tile, and adds the sum to an 8 × 128 accumulator that the first tile of a run resets; the last tile of a run
  copies the accumulator to that run's block of a 16 × 128 result array. The lines after the kernel add the two
  runs' totals, divide by the element count `2 ^ 26` and negate. The reference selects between `log (1 + -p)`
  and `log p`, sums every element from zero, divides by `2 ^ 26` and negates.

  Over the extended reals the two are one function of the arguments, whatever their values:
  `1 - p = 1 + -p`, so one logarithm of the selected argument is the selected logarithm (Spec.lean
  `log_select`); addition is commutative and associative, so the sum by tiles and runs is the sum over every
  index (`sum_all`, `running_last`); and the division and negation are the same last two operations on both
  sides. No use is made of the inputs being finite.

  The three frames are the generated ones (the reference's is its generated run with the result dropped); the
  idealization rewrote nothing, so `preserves` is `True`.
-/
import proofs.«157784_j45045617001061_2_alg».proof.Defs
import proofs.«157784_j45045617001061_2_alg».proof.Proof.Gen.Kernel
import proofs.«157784_j45045617001061_2_alg».proof.Proof.Gen.Kernel.Frame
import proofs.«157784_j45045617001061_2_alg».proof.Proof.Gen.KernelIdeal
import proofs.«157784_j45045617001061_2_alg».proof.Proof.Gen.KernelIdeal.Frame
import proofs.«157784_j45045617001061_2_alg».proof.Proof.Gen.ReferenceIdeal
import proofs.«157784_j45045617001061_2_alg».proof.Proof.Gen.ReferenceIdeal.Run
import proofs.«157784_j45045617001061_2_alg».proof.Proof.Gen.ReferenceIdeal.Read
import proofs.«157784_j45045617001061_2_alg».proof.Proof.Gen.Pre_finite_inputs
import proofs.«157784_j45045617001061_2_alg».proof.Proof.Final
import proofs.«157784_j45045617001061_2_alg».proof.Proof.RefSide
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_ideal : Cert.frame_KernelIdeal := fun m ρ _ => Cert.KernelIdeal.Gen.frame m ρ

theorem frame_reference : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end with their result at minus the mean of the elements' log-likelihoods of the same
    arguments: the kernel by its accumulation over tiles and runs, the reference by its one sum. -/
theorem algebraic : Cert.algebraic_KernelIdeal_ReferenceIdeal := by
  intro m ρ m' ρ' _ hagree
  refine ⟨fun c => Cert.LogLik.result (m ((c : Thread Cert.KernelIdeal.nD Cert.KernelIdeal.τ).loc Cert.KernelIdeal.main_arg0))
      (m ((c : Thread Cert.KernelIdeal.nD Cert.KernelIdeal.τ).loc Cert.KernelIdeal.main_arg1)),
    Cert.KernelIdeal.Final.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v8_eq, Cert.ReferenceIdeal.RefValue.result_eq, (hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_ideal, frame_reference, preserves, algebraic⟩

end Cert.Proof

end
